-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S4096x4096 32) (main_arg2 : FVec F S4096x1 .f32) (main_arg3 : FVec F S4096x1 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S8192x4096 : Shape := ⟨2, ![8192, 4096]⟩
abbrev S1024x512 : Shape := ⟨2, ![1024, 512]⟩
abbrev S1024x1 : Shape := ⟨2, ![1024, 1]⟩
abbrev S1024 : Shape := ⟨1, ![1024]⟩
abbrev S1024x1024 : Shape := ⟨2, ![1024, 1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S8192x4096, .f32⟩
  | .hbm, ⟨6, _⟩ => ⟨S8192x4096, .f32⟩
  | .hbm, ⟨7, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .i32⟩
  | .local _ .vmem, ⟨3, _⟩ => ⟨S1024x512, .i32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024, .f32⟩
  | .local _ .vmem, ⟨9, _⟩ => ⟨S1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  broadcasts_S1024x1_S1024x512 : S1024x1.Broadcasts S1024x512
  bitsLt_bf16_f32 : FTy.bits .bf16 < FTy.bits .f32
  shapeCasts_S1024x512_S1024x512 : S1024x512.ShapeCasts S1024x512
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S8192x4096_S4x2048x4096 : S8192x4096.ShapeCasts S4x2048x4096
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .i32 = 32 ∨ (Rect.block (s := S4096x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S4096.size a
  hwx0_4 : ∀ i : grid0.Coords, EltTy.bits .f32 = 32 ∨ (Rect.block (s := S4096) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4x2048x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one grid point's body leaves behind, as values.

  The body keeps a [1024, 1024] accumulator across the eight points of a reduction run. At the run's first
  point it clears the accumulator and adds that point's partial product into the cleared block; at every
  later point it adds the point's partial product into what the point before left; at the run's last point it
  also writes "accumulator + bias row" into the output block. Each of these is one covering store of the whole
  block, so what the buffer holds afterwards is that store's value, and every load of a whole input block
  reads the block itself.
-/
import proofs.«134302_j1692217114910_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

/-- The zero offsets of a rank-2 block, as the constant function. -/
theorem hz2 : (![0, 0] : Fin 2 → Nat) = fun _ => 0 := funext fun a => by fin_cases a <;> rfl
/-- The zero offset of a rank-1 block, as the constant function. -/
theorem hz1 : (![0] : Fin 1 → Nat) = fun _ => 0 := funext fun a => by fin_cases a <;> rfl

/-- First point of a run: the accumulator ends at the cleared block plus this point's partial product. -/
theorem sout_A (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 : Vec F S1024x512 .f32) (x1 : Vec F S1024x512 .i32) (x2 : Vec F S1024x1 .f32) (x3 : Vec F S1024x1 .f32) (x4 : Vec F S1024 .f32) :
    sout0_A_0 c i arg3 harg3 arg4 harg4 arg5 harg5 arg6 harg6 arg7 harg7 arg8 harg8 arg9 harg9 hc0 hc1 x0 x1 x2 x3 x4
      = k0_pay2 x1 x3 x2 x0 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz2, View.readCov_unit_zero (S := S1024x1024) _ hz2]
  simp only [View.readAt_eq_ld, harg3.read_unread, harg4.read_unread, harg5.read_unread, harg6.read_unread,
    View.ld_unit_zero (S := S1024x512) hz2, View.ld_unit_zero (S := S1024x1) hz2]

/-- A middle point of a run: the accumulator ends at what the point before left plus this point's partial product. -/
theorem sout_B (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 : Vec F S1024x512 .f32) (x1 : Vec F S1024x512 .i32) (x2 : Vec F S1024x1 .f32) (x3 : Vec F S1024x1 .f32) (x4 : Vec F S1024 .f32) (xs0 : Vec F S1024x1024 .f32) :
    sout0_B_0 c i arg3 harg3 arg4 harg4 arg5 harg5 arg6 harg6 arg7 harg7 arg8 harg8 arg9 harg9 hc0 hc1 x0 x1 x2 x3 x4 xs0
      = k0_pay2 x1 x3 x2 x0 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero (S := S1024x1024) hz2]
  simp only [View.readAt_eq_ld, harg3.read_unread, harg4.read_unread, harg5.read_unread, harg6.read_unread, harg9.read_unread,
    View.ld_unit_zero (S := S1024x512) hz2, View.ld_unit_zero (S := S1024x1) hz2, View.ld_unit_zero (S := S1024x1024) hz2]

/-- Last point of a run: the accumulator is updated as at a middle point … -/
theorem sout_C (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x512 .f32) (x1 : Vec F S1024x512 .i32) (x2 : Vec F S1024x1 .f32) (x3 : Vec F S1024x1 .f32) (x4 : Vec F S1024 .f32) (xs0 : Vec F S1024x1024 .f32) :
    sout0_C_0 c i arg3 harg3 arg4 harg4 arg5 harg5 arg6 harg6 arg7 harg7 arg8 harg8 arg9 harg9 hc0 hc1 x0 x1 x2 x3 x4 xs0
      = k0_pay2 x1 x3 x2 x0 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero (S := S1024x1024) hz2]
  simp only [View.readAt_eq_ld, harg3.read_unread, harg4.read_unread, harg5.read_unread, harg6.read_unread, harg9.read_unread,
    View.ld_unit_zero (S := S1024x512) hz2, View.ld_unit_zero (S := S1024x1) hz2, View.ld_unit_zero (S := S1024x1024) hz2]

/-- … and the output block receives the updated accumulator plus the bias row. -/
theorem out_C (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x512 .f32) (x1 : Vec F S1024x512 .i32) (x2 : Vec F S1024x1 .f32) (x3 : Vec F S1024x1 .f32) (x4 : Vec F S1024 .f32) (xs0 : Vec F S1024x1024 .f32) :
    out0_C_5 c i arg3 harg3 arg4 harg4 arg5 harg5 arg6 harg6 arg7 harg7 arg8 harg8 arg9 harg9 hc0 hc1 x0 x1 x2 x3 x4 xs0
      = k0_pay3 (k0_pay2 x1 x3 x2 x0 xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero (S := S1024x1024) hz2, View.readCov_unit_zero (S := S1024x1024) _ hz2]
  simp only [View.readAt_eq_ld, harg3.read_unread, harg4.read_unread, harg5.read_unread, harg6.read_unread, harg7.read_unread, harg9.read_unread,
    View.ld_unit_zero (S := S1024x512) hz2, View.ld_unit_zero (S := S1024x1) hz2, View.ld_unit_zero (S := S1024x1024) hz2,
    View.ld_unit_zero (S := S1024) hz1]

end Cert.KernelIdeal.Acc

end
-- ==== Proof.Steps.lean ====
/-
  The accumulator and the output block after each grid point, as the body's stored values of the point's tiles.

  Point t is step t % 8 of its reduction run. At step 0 the accumulator ends at the update of the cleared block;
  at a later step at the update of what point t − 1 left; and at step 7 the output block ends at the accumulator
  the same point leaves, plus the bias row.
-/
import proofs.«134302_j1692217114910_1_alg».proof.Proof.Pieces

noncomputable section

open Idealize.ShloMosaic Idealize.ShloMosaic.TcCoe Idealize.SL.Sem

namespace Cert.KernelIdeal.Acc

open Cert.KernelIdeal Cert.KernelIdeal.Gen

variable {F : FTy → Type} [FloatOps F]
variable (m : (ℓ : Loc nD τ sig) → Buf (Elt F) ℓ)

/-- The accumulator update of point t's tiles applied to an accumulator. -/
abbrev upd (c : Dev nD) (t : Fin cfg0.N) (acc : Vec F S1024x1024 .f32) : Vec F S1024x1024 .f32 :=
  k0_pay2 (iblk m c 1 t) (iblk m c 3 t) (iblk m c 2 t) (iblk m c 0 t) acc

/-- Step 0 of a run: the accumulator is the update of the cleared block. -/
theorem acc_first (c : Dev nD) (t : Fin cfg0.N) (h0 : t.val % 8 = 0) (h1 : ¬t.val % 8 = 7) :
    (outsAt0 m c t.val t.isLt).2 = upd m c t (k0_pay1 (F := F)) := by
  rw [outsAt0_A m c t h0 h1]
  dsimp only
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- Steps 1 to 6: the accumulator is the update of what the point before left. -/
theorem acc_mid (c : Dev nD) (t : Fin cfg0.N) (h0 : ¬t.val % 8 = 0) (h1 : ¬t.val % 8 = 7) :
    (outsAt0 m c t.val t.isLt).2 = upd m c t (outsAt0 m c (t.val - 1) (Nat.lt_of_le_of_lt (Nat.sub_le _ _) t.isLt)).2 := by
  rw [outsAt0_B m c t h0 h1]
  dsimp only
  exact sout_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

/-- Step 7: the accumulator is updated the same way … -/
theorem acc_last (c : Dev nD) (t : Fin cfg0.N) (h0 : ¬t.val % 8 = 0) (h1 : t.val % 8 = 7) :
    (outsAt0 m c t.val t.isLt).2 = upd m c t (outsAt0 m c (t.val - 1) (Nat.lt_of_le_of_lt (Nat.sub_le _ _) t.isLt)).2 := by
  rw [outsAt0_C m c t h0 h1]
  dsimp only
  exact sout_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- … and the output block is that accumulator plus the bias row. -/
theorem out_last (c : Dev nD) (t : Fin cfg0.N) (h0 : ¬t.val % 8 = 0) (h1 : t.val % 8 = 7) :
    (outsAt0 m c t.val t.isLt).1 = k0_pay3 (outsAt0 m c t.val t.isLt).2 (iblk m c 4 t) := by
  rw [acc_last m c t h0 h1, outsAt0_C m c t h0 h1]
  dsimp only
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

end Cert.KernelIdeal.Acc

end
-- ==== Proof.Payload.lean ====
/-
  The body's three stored values, read at one element over the extended reals.

  * the cleared accumulator is 0 everywhere;
  * the accumulator update at (r, n) is the old accumulator at (r, n) plus the sum over the 512 columns j of the
    point's tiles of x[r, j] · ((q[n, j] − zero[n]) · scale[n]): the product contracts the tiles' shared column axis,
    the dequantized weight tile is built row by row from the per-row zero point and scale, and the two roundings
    to a narrower float format on the way into the product are the identity on the extended reals;
  * the output block at (r, n) is the accumulator at (r, n) plus bias[n].
-/
import proofs.«134302_j1692217114910_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Acc

open Cert.KernelIdeal Cert.KernelIdeal.Gen

/-- The tile product's dimension numbers: both operands contract their column axis. -/
abbrev DD := dot_S1024x512_S1024x512_S1024x1024_1_1_0_0_n_n

theorem lhs_row (i : S1024x1024.Idx) (q : DD.contr.Idx) : (DD.lhsIdx i q 0).val = (i 0).val := by
  unfold DotDims.lhsIdx
  rw [dif_neg (show ¬(0 : Fin S1024x512.rank) ∈ DD.lhsBatch by decide), dif_pos (show (0 : Fin S1024x512.rank) ∈ DD.lhsNonContracting by decide)]
  rfl
theorem lhs_col (i : S1024x1024.Idx) (q : DD.contr.Idx) : (DD.lhsIdx i q 1).val = (q ⟨0, by decide⟩).val :=
  DD.lhsIdx_val_of_single rfl i q
theorem rhs_row (i : S1024x1024.Idx) (q : DD.contr.Idx) : (DD.rhsIdx i q 0).val = (i 1).val := by
  unfold DotDims.rhsIdx
  rw [dif_neg (show ¬(0 : Fin S1024x512.rank) ∈ DD.rhsBatch by decide), dif_pos (show (0 : Fin S1024x512.rank) ∈ DD.rhsNonContracting by decide)]
  rfl
theorem rhs_col (i : S1024x1024.Idx) (q : DD.contr.Idx) : (DD.rhsIdx i q 1).val = (q ⟨0, by decide⟩).val :=
  DD.rhsIdx_val_of_single rfl i q

/-- A [1024, 1] column broadcast along the 512 columns reads its row's one entry. -/
theorem bcast_col (v : FVec Ideal S1024x1 .f32) (n : Fin 1024) (j : Fin 512) :
    broadcastTo S1024x512 v broadcasts_S1024x1_S1024x512 (ix2 n j) = v (ix2 n (0 : Fin 1)) :=
  broadcastTo_apply v broadcasts_S1024x1_S1024x512 (ix2 n j) (ix2 n (0 : Fin 1)) (fun a => match a with
    | ⟨0, _⟩ => by show n.val = if (1024 : Nat) = 1 then 0 else n.val; rw [if_neg (by decide)]
    | ⟨1, _⟩ => by show 0 = if (1 : Nat) = 1 then 0 else j.val; rw [if_pos rfl])

/-- The cleared accumulator is zero at every element. -/
theorem pay1_apply (j : S1024x1024.Idx) : k0_pay1 (F := Ideal) j = 0 := by
  unfold k0_pay1
  rw [shapeCast_self]
  exact Ideal.ofBits_zero_f32

/-- The dequantized weight tile at (n, j). -/
theorem wtile_apply (q : IVec S1024x512 32) (z s : FVec Ideal S1024x1 .f32) (n : Fin 1024) (j : Fin 512) :
    (mulf (subf (sitofp (F := Ideal) .f32 q) (broadcastTo S1024x512 z broadcasts_S1024x1_S1024x512))
        (broadcastTo S1024x512 s broadcasts_S1024x1_S1024x512) : FVec Ideal S1024x512 .f32) (ix2 n j)
      = (FloatOps.sitofp (F := Ideal) .f32 (q (ix2 n j)) - z (ix2 n (0 : Fin 1))) * s (ix2 n (0 : Fin 1)) := by
  rw [mulf_apply, subf_apply, bcast_col, bcast_col]
  rfl

/-- The accumulator update at (r, n): the old value plus the tiles' product over their 512 shared columns. -/
theorem pay2_apply (q : IVec S1024x512 32) (z s : FVec Ideal S1024x1 .f32) (x : FVec Ideal S1024x512 .f32)
    (acc : FVec Ideal S1024x1024 .f32) (r n : Fin 1024) :
    k0_pay2 (F := Ideal) q z s x acc (ix2 r n)
      = acc (ix2 r n) + ∑ j : Fin 512, x (ix2 r j)
          * ((FloatOps.sitofp (F := Ideal) .f32 (q (ix2 n j)) - z (ix2 n (0 : Fin 1))) * s (ix2 n (0 : Fin 1))) := by
  unfold k0_pay2
  simp only [shapeCast_self]
  rw [addf_apply]
  refine congrArg (acc (ix2 r n) + ·) ?_
  refine (Ideal.matmul_constant_zero_apply DD none _ _ (ix2 r n)).trans ?_
  rw [← Equiv.sum_comp (contrEquiv1 DD 512 rfl rfl).symm]
  refine Finset.sum_congr rfl fun j _ => ?_
  have hk := contrEquiv1_symm_val DD 512 rfl rfl j
  have el : DD.lhsIdx (ix2 r n) ((contrEquiv1 DD 512 rfl rfl).symm j) = ix2 r j := funext fun a => Fin.ext (by
    match a with
    | ⟨0, _⟩ => exact lhs_row _ _
    | ⟨1, _⟩ => exact (lhs_col _ _).trans hk)
  have er : DD.rhsIdx (ix2 r n) ((contrEquiv1 DD 512 rfl rfl).symm j) = ix2 n j := funext fun a => Fin.ext (by
    match a with
    | ⟨0, _⟩ => exact rhs_row _ _
    | ⟨1, _⟩ => exact (rhs_col _ _).trans hk)
  rw [el, er, truncf_apply, truncf_apply, wtile_apply]

/-- The output block at (r, n): the accumulator plus the bias row's entry n. -/
theorem pay3_apply (acc : FVec Ideal S1024x1024 .f32) (b : FVec Ideal S1024 .f32) (r n : Fin 1024) :
    k0_pay3 (F := Ideal) acc b (ix2 r n) = acc (ix2 r n) + b (ix1 n) := by
  unfold k0_pay3
  rw [addf_apply]
  refine congrArg (acc (ix2 r n) + ·) ?_
  exact (broadcastTo_1b_ab_apply _ broadcasts_S1x1024_S1024x1024 r n).trans
    (shapeCast_a_1a_apply b shapeCasts_S1024_S1x1024 (0 : Fin 1) n)

end Cert.KernelIdeal.Acc

end
-- ==== Proof.Blocks.lean ====
/-
  Where each window's block sits in its array, and what the region finds in the arrays.

  The grid has 8 · 4 · 8 points, the last axis fastest: point t is row tile t / 32, column tile (t / 8) % 4 and
  reduction step t % 8. The x window's block at t is rows 1024·(t/32) …, columns 512·(t%8) … of the [8192, 4096]
  reshaped input; the weight window's is rows 1024·((t/8)%4) …, columns 512·(t%8) … of the [4096, 4096] integer
  matrix; the scale, zero-point and bias windows' blocks are entries 1024·((t/8)%4) … of their arrays; the output
  window's is rows 1024·(t/32) …, columns 1024·((t/8)%4) … of the [8192, 4096] result.
-/
import proofs.«134302_j1692217114910_1_alg».proof.Proof.Gen.KernelIdeal.Frame
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Acc

open Cert.KernelIdeal Cert.KernelIdeal.Gen

variable {F : FTy → Type} [FloatOps F]
variable (m : (ℓ : Loc nD τ sig) → Buf (Elt F) ℓ)

/-- The block indices of the six windows at point t. -/
theorem idx_facts : ∀ t : Fin cfg0.N,
    (win0_0.index t (0 : Fin 2) = t.val / 32 ∧ win0_0.index t (1 : Fin 2) = t.val % 8)
    ∧ (win0_1.index t (0 : Fin 2) = t.val / 8 % 4 ∧ win0_1.index t (1 : Fin 2) = t.val % 8)
    ∧ (win0_2.index t (0 : Fin 2) = t.val / 8 % 4 ∧ win0_2.index t (1 : Fin 2) = 0)
    ∧ (win0_3.index t (0 : Fin 2) = t.val / 8 % 4 ∧ win0_3.index t (1 : Fin 2) = 0)
    ∧ (win0_4.index t (0 : Fin 1) = t.val / 8 % 4)
    ∧ (win0_5.index t (0 : Fin 2) = t.val / 32 ∧ win0_5.index t (1 : Fin 2) = t.val / 8 % 4) :=
  (by decide +kernel : ∀ t : Fin grid0.N, _)

/-- The x tile at point t, element (r, j), is the reshaped input at (1024·(t/32) + r, 512·(t%8) + j). -/
theorem xblk_apply (c : Dev nD) (t : Fin cfg0.N) (r : Fin 1024) (j : Fin 512) (R : Fin 8192) (K : Fin 4096)
    (hR : R.val = 1024 * (t.val / 32) + r.val) (hK : K.val = 512 * (t.val % 8) + j.val) :
    (iblk m c 0 t : Vec F S1024x512 .f32) (ix2 r j) = (V m c main_v0 : Vec F S8192x4096 .f32) (ix2 R K) := by
  obtain ⟨⟨h0, h1⟩, -⟩ := idx_facts t
  unfold iblk
  rw [View.read_apply]
  show (V m c main_v0 : Vec F S8192x4096 .f32) _ = _
  refine congrArg (V m c main_v0 : Vec F S8192x4096 .f32) (funext fun a => Fin.ext ?_)
  match a with
  | ⟨0, _⟩ => show win0_0.index t (0 : Fin 2) * 1024 + 1 * r.val = R.val; rw [h0, hR]; omega
  | ⟨1, _⟩ => show win0_0.index t (1 : Fin 2) * 512 + 1 * j.val = K.val; rw [h1, hK]; omega

/-- The weight tile at point t, element (n, j), is the integer matrix at (1024·((t/8)%4) + n, 512·(t%8) + j). -/
theorem qblk_apply (c : Dev nD) (t : Fin cfg0.N) (n : Fin 1024) (j : Fin 512) (N : Fin 4096) (K : Fin 4096)
    (hN : N.val = 1024 * (t.val / 8 % 4) + n.val) (hK : K.val = 512 * (t.val % 8) + j.val) :
    (iblk m c 1 t : Vec F S1024x512 .i32) (ix2 n j) = (V m c main_arg1 : Vec F S4096x4096 .i32) (ix2 N K) := by
  obtain ⟨-, ⟨h0, h1⟩, -⟩ := idx_facts t
  unfold iblk
  rw [View.read_apply]
  show (V m c main_arg1 : Vec F S4096x4096 .i32) _ = _
  refine congrArg (V m c main_arg1 : Vec F S4096x4096 .i32) (funext fun a => Fin.ext ?_)
  match a with
  | ⟨0, _⟩ => show win0_1.index t (0 : Fin 2) * 1024 + 1 * n.val = N.val; rw [h0, hN]; omega
  | ⟨1, _⟩ => show win0_1.index t (1 : Fin 2) * 512 + 1 * j.val = K.val; rw [h1, hK]; omega

/-- The scale tile at point t, row n, is the scale column at row 1024·((t/8)%4) + n. -/
theorem sblk_apply (c : Dev nD) (t : Fin cfg0.N) (n : Fin 1024) (N : Fin 4096)
    (hN : N.val = 1024 * (t.val / 8 % 4) + n.val) :
    (iblk m c 2 t : Vec F S1024x1 .f32) (ix2 n (0 : Fin 1)) = (V m c main_arg2 : Vec F S4096x1 .f32) (ix2 N (0 : Fin 1)) := by
  obtain ⟨-, -, ⟨h0, h1⟩, -⟩ := idx_facts t
  unfold iblk
  rw [View.read_apply]
  show (V m c main_arg2 : Vec F S4096x1 .f32) _ = _
  refine congrArg (V m c main_arg2 : Vec F S4096x1 .f32) (funext fun a => Fin.ext ?_)
  match a with
  | ⟨0, _⟩ => show win0_2.index t (0 : Fin 2) * 1024 + 1 * n.val = N.val; rw [h0, hN]; omega
  | ⟨1, _⟩ => show win0_2.index t (1 : Fin 2) * 1 + 1 * 0 = 0; rw [h1]

/-- The zero-point tile at point t, row n, is the zero-point column at row 1024·((t/8)%4) + n. -/
theorem zblk_apply (c : Dev nD) (t : Fin cfg0.N) (n : Fin 1024) (N : Fin 4096)
    (hN : N.val = 1024 * (t.val / 8 % 4) + n.val) :
    (iblk m c 3 t : Vec F S1024x1 .f32) (ix2 n (0 : Fin 1)) = (V m c main_arg3 : Vec F S4096x1 .f32) (ix2 N (0 : Fin 1)) := by
  obtain ⟨-, -, -, ⟨h0, h1⟩, -⟩ := idx_facts t
  unfold iblk
  rw [View.read_apply]
  show (V m c main_arg3 : Vec F S4096x1 .f32) _ = _
  refine congrArg (V m c main_arg3 : Vec F S4096x1 .f32) (funext fun a => Fin.ext ?_)
  match a with
  | ⟨0, _⟩ => show win0_3.index t (0 : Fin 2) * 1024 + 1 * n.val = N.val; rw [h0, hN]; omega
  | ⟨1, _⟩ => show win0_3.index t (1 : Fin 2) * 1 + 1 * 0 = 0; rw [h1]

/-- The bias tile at point t, entry n, is the bias at 1024·((t/8)%4) + n. -/
theorem bblk_apply (c : Dev nD) (t : Fin cfg0.N) (n : Fin 1024) (N : Fin 4096)
    (hN : N.val = 1024 * (t.val / 8 % 4) + n.val) :
    (iblk m c 4 t : Vec F S1024 .f32) (ix1 n) = (V m c main_arg4 : Vec F S4096 .f32) (ix1 N) := by
  obtain ⟨-, -, -, -, h0, -⟩ := idx_facts t
  unfold iblk
  rw [View.read_apply]
  show (V m c main_arg4 : Vec F S4096 .f32) _ = _
  refine congrArg (V m c main_arg4 : Vec F S4096 .f32) (funext fun a => Fin.ext ?_)
  match a with
  | ⟨0, _⟩ => show win0_4.index t (0 : Fin 1) * 1024 + 1 * n.val = N.val; rw [h0, hN]; omega

/-- The region finds, in the x window's array, the input re-laid as [8192, 4096]. -/
theorem V_x2d (c : Dev nD) :
    (V m c main_v0 : Vec F S8192x4096 .f32)
      = shapeCast S8192x4096 (m ((c : Thread nD τ).loc main_arg0)) shapeCasts_S4x2048x4096_S8192x4096 := by
  show StableHlo.after hostOps0 (fun b => m (c, b)) (Proc.devRef .tc main_v0) = _
  after_results
  rfl

end Cert.KernelIdeal.Acc

end
-- ==== Proof.Spec.lean ====
/-
  The function both programs compute, on the extended reals, and the one law that joins a tiled sum to a whole one.

  With q the integer weight matrix [out, in], zero and scale its per-row zero point and scale, the dequantized
  weight is w[o, i] = (q[o, i] − zero[o]) · scale[o], and the result is
      out[b, s, o] = (∑ i, x[b, s, i] · w[o, i]) + bias[o].
  The kernel works on x re-laid as [8192, 4096] (row 2048·b + s) and forms the sum over i in eight consecutive
  chunks of 512; a sum over 4096 = 8 · 512 indices is the sum over the chunks of the sums inside each chunk,
  in any commutative monoid, so no finiteness of the summands is used.
-/
import Idealize.ShloMosaic.PureOps.Ideal
import Idealize.ShloMosaic.Lib.ValueIdx

noncomputable section

open scoped BigOperators

namespace Cert.QuantLinear

open Idealize.ShloMosaic Idealize.ShloMosaic.ValueIdx

/-- The dequantized weight at (o, i): (q[o, i] − zero[o]) · scale[o]. -/
def wq (q : IVec ⟨2, ![4096, 4096]⟩ 32) (z s : FVec Ideal ⟨2, ![4096, 1]⟩ .f32) (o i : Fin 4096) : EReal :=
  (FloatOps.sitofp (F := Ideal) .f32 (q (ix2 o i)) - z (ix2 o (0 : Fin 1))) * s (ix2 o (0 : Fin 1))

/-- The result over x re-laid as [8192, 4096]: row R, output channel o. -/
def out2 (x2 : FVec Ideal ⟨2, ![8192, 4096]⟩ .f32) (q : IVec ⟨2, ![4096, 4096]⟩ 32) (z s : FVec Ideal ⟨2, ![4096, 1]⟩ .f32)
    (b : FVec Ideal ⟨1, ![4096]⟩ .f32) (R : Fin 8192) (o : Fin 4096) : EReal :=
  (∑ i : Fin 4096, x2 (ix2 R i) * wq q z s o i) + b (ix1 o)

/-- The result as the reference states it: batch b, position s, output channel o. -/
def out3 (x : FVec Ideal ⟨3, ![4, 2048, 4096]⟩ .f32) (q : IVec ⟨2, ![4096, 4096]⟩ 32) (z s : FVec Ideal ⟨2, ![4096, 1]⟩ .f32)
    (b : FVec Ideal ⟨1, ![4096]⟩ .f32) (bb : Fin 4) (ss : Fin 2048) (o : Fin 4096) : EReal :=
  (∑ i : Fin 4096, x (ix3 bb ss i) * wq q z s o i) + b (ix1 o)

/-- The same as an array indexed by (b, s, o). -/
def out3v (x : FVec Ideal ⟨3, ![4, 2048, 4096]⟩ .f32) (q : IVec ⟨2, ![4096, 4096]⟩ 32) (z s : FVec Ideal ⟨2, ![4096, 1]⟩ .f32)
    (b : FVec Ideal ⟨1, ![4096]⟩ .f32) : FVec Ideal ⟨3, ![4, 2048, 4096]⟩ .f32 :=
  fun i => out3 x q z s b (i 0) (i 1) (i 2)

/-- A sum over 4096 indices is the sum over 8 chunks of the sums over each chunk's 512 indices. -/
theorem sum_chunks {β : Type*} [AddCommMonoid β] (f : Fin 4096 → β) :
    ∑ k : Fin 4096, f k = ∑ s : Fin 8, ∑ j : Fin 512, f ⟨512 * s.val + j.val, by omega⟩ := by
  rw [← Equiv.sum_comp (finProdFinEquiv (m := 8) (n := 512)) f, Fintype.sum_prod_type]
  refine Finset.sum_congr rfl fun s _ => Finset.sum_congr rfl fun j _ => congrArg f (Fin.ext ?_)
  show j.val + 512 * s.val = 512 * s.val + j.val
  omega

end Cert.QuantLinear

end
-- ==== Proof.Fold.lean ====
/-
  The accumulator over a reduction run, and the output block it yields.

  Point p adds, at accumulator element (r, n), the sum over its 512 columns j of
  x2[1024·(p/32) + r, 512·(p%8) + j] · w[1024·((p/8)%4) + n, 512·(p%8) + j]. The eight points of a run share the row tile
  and the column tile and walk the eight 512-column chunks in order, starting from the cleared block, so after
  step k the accumulator holds the sum of the first k + 1 chunks, and after step 7 the whole sum over the 4096
  columns; the output block is that plus the bias, which is the result function at the block's place in the array.
  Only commutativity and associativity of addition on the extended reals and 0 + a = a are used.
-/
import proofs.«134302_j1692217114910_1_alg».proof.Proof.Steps
import proofs.«134302_j1692217114910_1_alg».proof.Proof.Payload
import proofs.«134302_j1692217114910_1_alg».proof.Proof.Blocks
import proofs.«134302_j1692217114910_1_alg».proof.Proof.Spec

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.QuantLinear

variable (m : (ℓ : Loc nD τ sig) → Buf (Elt Ideal) ℓ)

/-- The arrays as the region finds them: x re-laid as [8192, 4096], the integer weights, the scales, the zero
    points and the bias. -/
def X2 (c : Dev nD) : FVec Ideal S8192x4096 .f32 := V m c main_v0
def Qm (c : Dev nD) : IVec S4096x4096 32 := V m c main_arg1
def Sc (c : Dev nD) : FVec Ideal S4096x1 .f32 := V m c main_arg2
def Zp (c : Dev nD) : FVec Ideal S4096x1 .f32 := V m c main_arg3
def Bs (c : Dev nD) : FVec Ideal S4096 .f32 := V m c main_arg4

/-- Row r of point p's row tile, column n of its column tile, column j of its reduction chunk, in the arrays. -/
abbrev rowOf (p : ℕ) (r : Fin 1024) : Fin 8192 := ⟨1024 * (p / 32 % 8) + r.val, by omega⟩
abbrev colOf (p : ℕ) (n : Fin 1024) : Fin 4096 := ⟨1024 * (p / 8 % 4) + n.val, by omega⟩
abbrev kOf (p : ℕ) (j : Fin 512) : Fin 4096 := ⟨512 * (p % 8) + j.val, by omega⟩

/-- What point p adds to accumulator element (r, n). -/
def addend (c : Dev nD) (p : ℕ) (r n : Fin 1024) : EReal :=
  ∑ j : Fin 512, X2 m c (ix2 (rowOf p r) (kOf p j)) * wq (Qm m c) (Zp m c) (Sc m c) (colOf p n) (kOf p j)

/-- The accumulator update of point t at (r, n) adds the point's addend. -/
theorem upd_apply (c : Dev nD) (t : Fin cfg0.N) (acc : FVec Ideal S1024x1024 .f32) (r n : Fin 1024) :
    upd m c t acc (ix2 r n) = acc (ix2 r n) + addend m c t.val r n := by
  have hN : t.val < 256 := lt_of_lt_of_eq t.isLt (show cfg0.N = 256 from N_0)
  refine (pay2_apply (iblk m c 1 t) (iblk m c 3 t) (iblk m c 2 t) (iblk m c 0 t) acc r n).trans ?_
  refine congrArg (acc (ix2 r n) + ·) (Finset.sum_congr rfl fun j _ => ?_)
  rw [xblk_apply m c t r j (rowOf t.val r) (kOf t.val j) (by show 1024 * (t.val / 32 % 8) + r.val = _; omega) rfl,
    qblk_apply m c t n j (colOf t.val n) (kOf t.val j) rfl rfl,
    zblk_apply m c t n (colOf t.val n) rfl, sblk_apply m c t n (colOf t.val n) rfl]
  rfl

/-- After point p the accumulator holds the addends of its run's points up to p. -/
theorem acc_sum (c : Dev nD) : ∀ (p : ℕ) (h : p < cfg0.N) (r n : Fin 1024),
    (outsAt0 m c p h).2 (ix2 r n) = ∑ s ∈ Finset.range (p % 8 + 1), addend m c (8 * (p / 8) + s) r n
  | 0, h, r, n => by
    refine (congrFun (acc_first m c ⟨0, h⟩ rfl (by show ¬(0 % 8 = 7); decide)) (ix2 r n)).trans ?_
    refine (upd_apply m c ⟨0, h⟩ _ r n).trans ?_
    rw [pay1_apply, zero_add]
    simp
  | q + 1, h, r, n => by
    by_cases h0 : (q + 1) % 8 = 0
    · have h1 : ¬(q + 1) % 8 = 7 := by omega
      refine (congrFun (acc_first m c ⟨q + 1, h⟩ h0 h1) (ix2 r n)).trans ?_
      refine (upd_apply m c ⟨q + 1, h⟩ _ r n).trans ?_
      rw [pay1_apply, zero_add, h0, Finset.sum_range_one]
      show addend m c (q + 1) r n = _
      rw [show 8 * ((q + 1) / 8) + 0 = q + 1 by omega]
    · have hstep : (outsAt0 m c (q + 1) h).2 = upd m c ⟨q + 1, h⟩ (outsAt0 m c q (Nat.lt_of_succ_lt h)).2 := by
        by_cases h1 : (q + 1) % 8 = 7
        · exact acc_last m c ⟨q + 1, h⟩ h0 h1
        · exact acc_mid m c ⟨q + 1, h⟩ h0 h1
      refine (congrFun hstep (ix2 r n)).trans ?_
      refine (upd_apply m c ⟨q + 1, h⟩ _ r n).trans ?_
      rw [acc_sum c q (Nat.lt_of_succ_lt h) r n]
      show _ + addend m c (q + 1) r n = _
      rw [show (q + 1) % 8 = q % 8 + 1 by omega, show (q + 1) / 8 = q / 8 by omega, Finset.sum_range_succ _ (q % 8 + 1),
        show 8 * (q / 8) + (q % 8 + 1) = q + 1 by omega]

/-- At the last point of a run the accumulator holds the whole sum over the 4096 columns. -/
theorem acc_full (c : Dev nD) (t : Fin cfg0.N) (h7 : t.val % 8 = 7) (r n : Fin 1024) :
    (outsAt0 m c t.val t.isLt).2 (ix2 r n)
      = ∑ i : Fin 4096, X2 m c (ix2 (rowOf t.val r) i) * wq (Qm m c) (Zp m c) (Sc m c) (colOf t.val n) i := by
  rw [acc_sum m c t.val t.isLt r n, h7, sum_chunks, Finset.sum_range]
  refine Finset.sum_congr rfl fun s _ => ?_
  unfold addend
  refine Finset.sum_congr rfl fun j _ => ?_
  have hs : s.val < 8 := s.isLt
  have e1 : rowOf (8 * (t.val / 8) + s.val) r = rowOf t.val r := Fin.ext (by
    show 1024 * ((8 * (t.val / 8) + s.val) / 32 % 8) + r.val = 1024 * (t.val / 32 % 8) + r.val; omega)
  have e2 : colOf (8 * (t.val / 8) + s.val) n = colOf t.val n := Fin.ext (by
    show 1024 * ((8 * (t.val / 8) + s.val) / 8 % 4) + n.val = 1024 * (t.val / 8 % 4) + n.val; omega)
  have e3 : kOf (8 * (t.val / 8) + s.val) j = ⟨512 * s.val + j.val, by omega⟩ := Fin.ext (by
    show 512 * ((8 * (t.val / 8) + s.val) % 8) + j.val = 512 * s.val + j.val; omega)
  rw [e1, e2, e3]

/-- So the output block that point writes is the result function at the block's place in the array. -/
theorem out_full (c : Dev nD) (t : Fin cfg0.N) (h7 : t.val % 8 = 7) (r n : Fin 1024) :
    (outsAt0 m c t.val t.isLt).1 (ix2 r n)
      = out2 (X2 m c) (Qm m c) (Zp m c) (Sc m c) (Bs m c) (rowOf t.val r) (colOf t.val n) := by
  have h0 : ¬t.val % 8 = 0 := by omega
  refine (congrFun (out_last m c t h0 h7) (ix2 r n)).trans ?_
  refine (pay3_apply (outsAt0 m c t.val t.isLt).2 (iblk m c 4 t) r n).trans ?_
  rw [acc_full m c t h7 r n, bblk_apply m c t n (colOf t.val n) rfl]
  rfl

end Cert.KernelIdeal.Acc

end
-- ==== Proof.KernelValue.lean ====
/-
  The kernel program's result.

  Every index (R, o) of the [8192, 4096] result array lies in the output block of exactly the points of row tile
  R / 1024 and column tile o / 1024, and the last point of that run writes the block back holding the result
  function there; so the array ends at the result function over x re-laid as [8192, 4096]. The program then
  re-lays the array as [4, 2048, 4096], and x re-laid as [8192, 4096] has at row 2048·b + s the row (b, s) of x:
  the program's result at (b, s, o) is (∑ i, x[b, s, i] · w[o, i]) + bias[o].
-/
import proofs.«134302_j1692217114910_1_alg».proof.Proof.Fold
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.QuantLinear

variable (m : (ℓ : Loc nD τ sig) → Buf (Elt Ideal) ℓ) (ρ : Dev nD → PrngReg)

/-- The [8192, 4096] result array: the result function of the arrays the region finds. -/
def res2 (c : Dev nD) : FVec Ideal S8192x4096 .f32 :=
  fun i => out2 (X2 m c) (Qm m c) (Zp m c) (Sc m c) (Bs m c) (i 0) (i 1)

/-- What a writing point writes back is its block of the result array. -/
theorem flushed_eq (c : Dev nD) (t : Fin cfg0.N) (hf : (cfg0.win 5).flush t = true) :
    (dats m 0 c).flushed 5 t = ((cfg0.win 5).blk t).view.read (Elt Ideal) (res2 m c) := by
  have h7 : t.val % 8 = 7 := (flush0_5 t).mp hf
  have hN : t.val < 256 := lt_of_lt_of_eq t.isLt (show cfg0.N = 256 from N_0)
  obtain ⟨-, -, -, -, -, ⟨i0, i1⟩⟩ := idx_facts t
  funext y
  obtain ⟨r, n, rfl⟩ : ∃ (r n : Fin 1024), y = ix2 r n := ⟨y 0, y 1, eq_ix2 y⟩
  rw [View.read_apply]
  have ex : (cfg0.win 5).xinj (grid0.coords t) (ix2 r n) = ix2 r n :=
    funext fun a => Fin.ext (by match a with | ⟨0, _⟩ => rfl | ⟨1, _⟩ => rfl)
  show (dats m 0 c).after 5 t ((cfg0.win 5).xinj (grid0.coords t) (ix2 r n)) = _
  rw [ex, after0_5]
  refine (out_full m c t h7 r n).trans ?_
  have eR : (((cfg0.win 5).blk t).view.emb (ix2 r n)) 0 = rowOf t.val r := Fin.ext (by
    show win0_5.index t (0 : Fin 2) * 1024 + 1 * r.val = 1024 * (t.val / 32 % 8) + r.val; rw [i0]; omega)
  have eC : (((cfg0.win 5).blk t).view.emb (ix2 r n)) 1 = colOf t.val n := Fin.ext (by
    show win0_5.index t (1 : Fin 2) * 1024 + 1 * n.val = 1024 * (t.val / 8 % 4) + n.val; rw [i1]; omega)
  show _ = out2 (X2 m c) (Qm m c) (Zp m c) (Sc m c) (Bs m c) ((((cfg0.win 5).blk t).view.emb (ix2 r n)) 0)
    ((((cfg0.win 5).blk t).view.emb (ix2 r n)) 1)
  rw [eR, eC]

/-- Every index of the result array is in the block of the last point of its tile's run. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 256 := N_0
  let t : Fin cfg0.N := ⟨32 * ((i 0).val / 1024) + 8 * ((i 1).val / 1024) + 7, by rw [hN]; omega⟩
  have ht : t.val = 32 * ((i 0).val / 1024) + 8 * ((i 1).val / 1024) + 7 := rfl
  obtain ⟨-, -, -, -, -, ⟨i0, i1⟩⟩ := idx_facts t
  refine ⟨t, (flush0_5 t).mpr (by rw [ht]; omega), ?_⟩
  show i ∈ ((View.whole main_v1).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    rw [i0, ht]; omega
  | ⟨1, _⟩ =>
    show win0_5.index t (1 : Fin 2) * 1024 ≤ (i 1).val ∧ (i 1).val < win0_5.index t (1 : Fin 2) * 1024 + 1024
    rw [i1, ht]; omega

/-- So the result array ends at the result function of the arrays the region finds. -/
theorem final (c : Dev nD) : (dats m 0 c).arrAt 5 cfg0.N = res2 m c :=
  (dats m 0 c).arrAt_eq_of_cover 5 (res2 m c) (flushed_eq m c) cover

/-- The program's result: the result function of the argument arrays. -/
def result (c : Dev nD) : FVec Ideal S4x2048x4096 .f32 :=
  out3v (m ((c : Thread nD τ).loc main_arg0)) (m ((c : Thread nD τ).loc main_arg1)) (m ((c : Thread nD τ).loc main_arg3))
    (m ((c : Thread nD τ).loc main_arg2)) (m ((c : Thread nD τ).loc main_arg4))

/-- The result array re-laid as [4, 2048, 4096] is the program's result. -/
theorem relaid (c : Dev nD) :
    shapeCast S4x2048x4096 (res2 m c) shapeCasts_S8192x4096_S4x2048x4096 = result m c := by
  funext i
  obtain ⟨bb, ss, o, rfl⟩ : ∃ (bb : Fin 4) (ss : Fin 2048) (o : Fin 4096), i = ix3 bb ss o := ⟨i 0, i 1, i 2, eq_ix3 i⟩
  rw [shapeCast_apply (res2 m c) shapeCasts_S8192x4096_S4x2048x4096 (ix3 bb ss o) (ix2 (⟨2048 * bb.val + ss.val, by omega⟩ : Fin 8192) o) (by
    rw [Shape.rowMajor_val_two, Shape.rowMajor_val_three]
    show (2048 * bb.val + ss.val) * 4096 + o.val = (bb.val * 2048 + ss.val) * 4096 + o.val
    omega)]
  show out2 (X2 m c) (Qm m c) (Zp m c) (Sc m c) (Bs m c) (⟨2048 * bb.val + ss.val, by omega⟩ : Fin 8192) o
    = out3 _ _ _ _ _ bb ss o
  unfold out2 out3
  have hQ : Qm m c = m ((c : Thread nD τ).loc main_arg1) := V_main_arg1 m c
  have hS : Sc m c = m ((c : Thread nD τ).loc main_arg2) := V_main_arg2 m c
  have hZ : Zp m c = m ((c : Thread nD τ).loc main_arg3) := V_main_arg3 m c
  have hB : Bs m c = m ((c : Thread nD τ).loc main_arg4) := V_main_arg4 m c
  have hX : X2 m c = shapeCast S8192x4096 (m ((c : Thread nD τ).loc main_arg0)) shapeCasts_S4x2048x4096_S8192x4096 := V_x2d m c
  rw [hQ, hS, hZ, hB, hX]
  refine congrArg (· + _) (Finset.sum_congr rfl fun k _ => congrArg (· * _) ?_)
  exact shapeCast_apply _ shapeCasts_S4x2048x4096_S8192x4096 (ix2 (⟨2048 * bb.val + ss.val, by omega⟩ : Fin 8192) k) (ix3 bb ss k) (by
    rw [Shape.rowMajor_val_two, Shape.rowMajor_val_three]
    show (bb.val * 2048 + ss.val) * 4096 + k.val = (2048 * bb.val + ss.val) * 4096 + k.val
    omega)

/-- What the program's last line leaves in the result buffer. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  rw [(Pipeline.withArrays_arr spec0 launch0.win.arr_inj c _ _ 5).trans (final m c)]
  exact relaid m c

/-- The run: every weakly fair execution ends with the result buffer at the result function of the argument
    arrays, and the argument arrays unchanged. -/
theorem run : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Acc

end
-- ==== Proof.RefValue.lean ====
/-
  The reference, read at one element: its dot_general contracts x's last axis with the dequantized weight's
  column axis, the weight is built from the broadcast zero points and scales exactly as in the kernel's tiles, and
  the bias is broadcast along the batch and position axes. So its result is the result function.
-/
import proofs.«134302_j1692217114910_1_alg».proof.Proof.Gen.ReferenceIdeal.Read
import proofs.«134302_j1692217114910_1_alg».proof.Proof.Spec

noncomputable section

open scoped BigOperators
open Idealize.ShloMosaic Idealize.ShloMosaic.ValueIdx

namespace Cert.ReferenceIdeal.RefValue

open Cert.ReferenceIdeal Cert.ReferenceIdeal.Read Cert.QuantLinear

/-- The reference's result at (b, s, o). -/
theorem ref_apply (x : (⟨S4x2048x4096, .f32⟩ : BufTy).Contents (Elt Ideal)) (q : (⟨S4096x4096, .i32⟩ : BufTy).Contents (Elt Ideal))
    (sc z : (⟨S4096x1, .f32⟩ : BufTy).Contents (Elt Ideal)) (b : (⟨S4096, .f32⟩ : BufTy).Contents (Elt Ideal))
    (bb : Fin 4) (ss : Fin 2048) (o : Fin 4096) :
    val_main_v8 (F := Ideal) x q sc z b (ix3 bb ss o) = out3 x q z sc b bb ss o := by
  rw [val_main_v8_apply, val_main_v5_apply, val_main_v7_apply, val_main_v6_apply]
  have eb : idx_main_v6 (idx_main_v7 (ix3 bb ss o)) = ix1 o :=
    funext fun a => Fin.ext (by match a with | ⟨0, _⟩ => rfl)
  rw [eb]
  unfold out3
  show (∑ k : Fin 4096, _) + b (ix1 o) = _
  refine congrArg (· + b (ix1 o)) (Finset.sum_congr rfl fun k _ => ?_)
  have el : lidx_main_v5 (ix3 bb ss o) k = ix3 bb ss k :=
    funext fun a => Fin.ext (by match a with | ⟨0, _⟩ => rfl | ⟨1, _⟩ => rfl | ⟨2, _⟩ => rfl)
  have er : ridx_main_v5 (ix3 bb ss o) k = ix2 o k :=
    funext fun a => Fin.ext (by match a with | ⟨0, _⟩ => rfl | ⟨1, _⟩ => rfl)
  have e1 : idx_main_v1 (ix2 o k) = ix2 o (0 : Fin 1) :=
    funext fun a => Fin.ext (by match a with | ⟨0, _⟩ => rfl | ⟨1, _⟩ => rfl)
  have e3 : idx_main_v3 (ix2 o k) = ix2 o (0 : Fin 1) :=
    funext fun a => Fin.ext (by match a with | ⟨0, _⟩ => rfl | ⟨1, _⟩ => rfl)
  rw [el, er, val_main_v4_apply, val_main_v2_apply, val_main_v0_apply, val_main_v1_apply, val_main_v3_apply, e1, e3]
  rfl

/-- The reference's result array is the result function. -/
theorem ref_eq (x : (⟨S4x2048x4096, .f32⟩ : BufTy).Contents (Elt Ideal)) (q : (⟨S4096x4096, .i32⟩ : BufTy).Contents (Elt Ideal))
    (sc z : (⟨S4096x1, .f32⟩ : BufTy).Contents (Elt Ideal)) (b : (⟨S4096, .f32⟩ : BufTy).Contents (Elt Ideal)) :
    val_main_v8 (F := Ideal) x q sc z b = out3v x q z sc b := by
  funext i
  obtain ⟨bb, ss, o, rfl⟩ : ∃ (bb : Fin 4) (ss : Fin 2048) (o : Fin 4096), i = ix3 bb ss o := ⟨i 0, i 1, i 2, eq_ix3 i⟩
  exact ref_apply x q sc z b bb ss o

end Cert.ReferenceIdeal.RefValue

end
-- ==== Proof.lean ====
/-
  A per-channel dequantized linear layer: out[b, s, o] = (∑ i, x[b, s, i] · ((q[o, i] − zero[o]) · scale[o])) + bias[o].

  The kernel tiles the [8192, 4096] product into 1024 × 1024 output blocks and accumulates each block over eight
  512-column chunks of the contraction axis in a carried accumulator, cleared at a run's first step and read out,
  with the bias added, at its last; the reference forms the dequantized weight whole and contracts it with x in one
  product. On the extended reals the two agree at every element: the roundings into the product are the identity,
  a sum over 4096 indices is the sum of its eight chunk sums (addition is commutative and associative, and
  0 + a = a), and re-laying x and the result between [4, 2048, 4096] and [8192, 4096] keeps row-major positions.
  No finiteness of the inputs is needed. The ideal pass rewrote nothing, so the kernel's idealization is its own
  text read on the extended reals.
-/
import proofs.«134302_j1692217114910_1_alg».proof.Defs
import proofs.«134302_j1692217114910_1_alg».proof.Proof.Gen.Kernel
import proofs.«134302_j1692217114910_1_alg».proof.Proof.Gen.Kernel.Skeleton
import proofs.«134302_j1692217114910_1_alg».proof.Proof.Gen.Kernel.Launch
import proofs.«134302_j1692217114910_1_alg».proof.Proof.Gen.Kernel.Points
import proofs.«134302_j1692217114910_1_alg».proof.Proof.Gen.Kernel.Frame
import proofs.«134302_j1692217114910_1_alg».proof.Proof.Gen.KernelIdeal
import proofs.«134302_j1692217114910_1_alg».proof.Proof.Gen.KernelIdeal.Skeleton
import proofs.«134302_j1692217114910_1_alg».proof.Proof.Gen.KernelIdeal.Launch
import proofs.«134302_j1692217114910_1_alg».proof.Proof.Gen.KernelIdeal.Points
import proofs.«134302_j1692217114910_1_alg».proof.Proof.Gen.KernelIdeal.Frame
import proofs.«134302_j1692217114910_1_alg».proof.Proof.Gen.ReferenceIdeal
import proofs.«134302_j1692217114910_1_alg».proof.Proof.Gen.ReferenceIdeal.Run
import proofs.«134302_j1692217114910_1_alg».proof.Proof.Gen.ReferenceIdeal.Read
import proofs.«134302_j1692217114910_1_alg».proof.Proof.Gen.Pre_finite_inputs
import proofs.«134302_j1692217114910_1_alg».proof.Proof.KernelValue
import proofs.«134302_j1692217114910_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments unchanged: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the result function of those arguments. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq, (hagree c).1, (hagree c).2.1,
    (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
